-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x128 : Shape := ⟨3, ![1, 4096, 128]⟩
abbrev S_ : Shape := ⟨0, ![]⟩

class Facts : Prop where
  bcast_S_S1x4096x128 : S_.BroadcastsInDim S1x4096x128 (![] : Fin 0 → Fin S1x4096x128.rank)
  reducesTo_S1x4096x128_S_d0_1_2 : S1x4096x128.ReducesTo [0, 1, 2] S_
  h_S_ : 0 < S_.numel

variable [Facts]

def fn {F : FTy → Type} [FloatOps F] (main_arg0 : FVec F S1x4096x128 .f32) (main_arg1 : FVec F S1x4096x128 .f32) : IVec S_ 1 :=
  let main_v0 : FVec F S1x4096x128 .f32 := Host.absf main_arg0
  let main_cst : FVec F S_ .f32 := constant S_ .f32 0x7F800000#32
  let main_v1 : FVec F S1x4096x128 .f32 := broadcastInDim S1x4096x128 ![] bcast_S_S1x4096x128 main_cst
  let main_v2 : IVec S1x4096x128 1 := cmpf .olt main_v0 main_v1
  let main_c : IVec S_ 1 := constantI S_ 1 1#1
  let main_v3 : IVec S_ 1 := (fun x v => Host.reduce IntOp.andi x v reducesTo_S1x4096x128_S_d0_1_2 h_S_) main_v2 main_c
  let main_v4 : FVec F S1x4096x128 .f32 := Host.absf main_arg1
  let main_cst_0 : FVec F S_ .f32 := constant S_ .f32 0x7F800000#32
  let main_v5 : FVec F S1x4096x128 .f32 := broadcastInDim S1x4096x128 ![] bcast_S_S1x4096x128 main_cst_0
  let main_v6 : IVec S1x4096x128 1 := cmpf .olt main_v4 main_v5
  let main_c_1 : IVec S_ 1 := constantI S_ 1 1#1
  let main_v7 : IVec S_ 1 := (fun x v => Host.reduce IntOp.andi x v reducesTo_S1x4096x128_S_d0_1_2 h_S_) main_v6 main_c_1
  let main_v8 : IVec S_ 1 := andi main_v3 main_v7
  main_v8
-- ==== Kernel.lean ====
abbrev S1x4096x128 : Shape := ⟨3, ![1, 4096, 128]⟩
abbrev S4096x128 : Shape := ⟨2, ![4096, 128]⟩
abbrev S4096x4096 : Shape := ⟨2, ![4096, 4096]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1x4096x4096 : Shape := ⟨3, ![1, 4096, 4096]⟩

abbrev nBuf : Space → Nat
  | .hbm => 8
  | .vmem => 10
  | .smem => 0
  | _ => 0

abbrev bufTy : (tb : Table) → Fin (tcTables nBuf tb) → BufTy
  | .hbm, ⟨0, _⟩ => ⟨S1x4096x128, .f32⟩
  | .hbm, ⟨1, _⟩ => ⟨S1x4096x128, .f32⟩
  | .hbm, ⟨2, _⟩ => ⟨S4096x128, .f32⟩
  | .hbm, ⟨3, _⟩ => ⟨S4096x128, .f32⟩
  | .hbm, ⟨4, _⟩ => ⟨S4096x128, .bf16⟩
  | .hbm, ⟨5, _⟩ => ⟨S4096x128, .bf16⟩
  | .hbm, ⟨6, _⟩ => ⟨S4096x4096, .f32⟩
  | .hbm, ⟨7, _⟩ => ⟨S1x4096x4096, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x1024, .f32⟩
  | .local _ .vmem, ⟨9, _⟩ => ⟨S1024x1024, .f32⟩
  | _, _ => ⟨S1x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1x4096x128_S4096x128 : S1x4096x128.ShapeCasts S4096x128
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S1024 : S1024x128.Reduces [1] S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S4096x4096_S1x4096x4096 : S4096x4096.ShapeCasts S1x4096x4096
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x128.size a
  hwx0_1 : ∀ i : grid0.Coords, EltTy.bits .f32 = 32 ∨ (Rect.block (s := S4096x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S4096x128.size a
  hwx0_2 : ∀ i : grid0.Coords, EltTy.bits .bf16 = 32 ∨ (Rect.block (s := S4096x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S4096x128.size a
  hwx0_3 : ∀ i : grid0.Coords, EltTy.bits .bf16 = 32 ∨ (Rect.block (s := S4096x128) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .f32 = 32 ∨ (Rect.block (s := S4096x4096) S1024x1024.size (cc0_transform_4 i) (hinb0_4 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x4096x128 : Shape := ⟨3, ![1, 4096, 128]⟩
abbrev S_ : Shape := ⟨0, ![]⟩
abbrev S1x4096 : Shape := ⟨2, ![1, 4096]⟩
abbrev S1x4096x4096 : Shape := ⟨3, ![1, 4096, 4096]⟩
abbrev S1x4096x1 : Shape := ⟨3, ![1, 4096, 1]⟩
abbrev S1x1x4096 : Shape := ⟨3, ![1, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S1x4096x128, .f32⟩
  | .hbm, ⟨1, _⟩ => ⟨S1x4096x128, .f32⟩
  | .hbm, ⟨2, _⟩ => ⟨S1x4096x128, .f32⟩
  | .hbm, ⟨3, _⟩ => ⟨S_, .f32⟩
  | .hbm, ⟨4, _⟩ => ⟨S1x4096, .f32⟩
  | .hbm, ⟨5, _⟩ => ⟨S1x4096x128, .f32⟩
  | .hbm, ⟨6, _⟩ => ⟨S_, .f32⟩
  | .hbm, ⟨7, _⟩ => ⟨S1x4096, .f32⟩
  | .hbm, ⟨8, _⟩ => ⟨S1x4096x4096, .f32⟩
  | .hbm, ⟨9, _⟩ => ⟨S1x4096x1, .f32⟩
  | .hbm, ⟨10, _⟩ => ⟨S1x1x4096, .f32⟩
  | .hbm, ⟨11, _⟩ => ⟨S1x4096x4096, .f32⟩
  | .hbm, ⟨12, _⟩ => ⟨S1x4096x4096, .f32⟩
  | .hbm, ⟨13, _⟩ => ⟨S1x4096x4096, .f32⟩
  | .hbm, ⟨14, _⟩ => ⟨S_, .f32⟩
  | .hbm, ⟨15, _⟩ => ⟨S1x4096x4096, .f32⟩
  | .hbm, ⟨16, _⟩ => ⟨S1x4096x4096, .f32⟩
  | .hbm, ⟨17, _⟩ => ⟨S1x4096x4096, .f32⟩
  | _, _ => ⟨S1x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S1x4096x128_S1x4096_d2 : S1x4096x128.ReducesTo [2] S1x4096
  h_S_ : 0 < S_.numel
  bcast_S1x4096_S1x4096x1_0_1 : S1x4096.BroadcastsInDim S1x4096x1 (![0, 1] : Fin 2 → Fin S1x4096x1.rank)
  bcast_S1x4096_S1x1x4096_0_2 : S1x4096.BroadcastsInDim S1x1x4096 (![0, 2] : Fin 2 → Fin S1x1x4096.rank)
  bcast_S1x4096x1_S1x4096x4096_0_1_2 : S1x4096x1.BroadcastsInDim S1x4096x4096 (![0, 1, 2] : Fin 3 → Fin S1x4096x4096.rank)
  bcast_S1x1x4096_S1x4096x4096_0_1_2 : S1x1x4096.BroadcastsInDim S1x4096x4096 (![0, 1, 2] : Fin 3 → Fin S1x4096x4096.rank)
  bcast_S_S1x4096x4096 : S_.BroadcastsInDim S1x4096x4096 (![] : Fin 0 → Fin S1x4096x4096.rank)
  dot_S1x4096x128_S1x4096x128_S1x4096x4096_2_2_1_1_0_0_wf : DotDims.WF S1x4096x128 S1x4096x128 S1x4096x4096 [2] [2] [1] [1] [0] [0]

variable [Facts₀]

def dot_S1x4096x128_S1x4096x128_S1x4096x4096_2_2_1_1_0_0 : DotDims S1x4096x128 S1x4096x128 S1x4096x4096 where
  lhsContracting := [2]
  rhsContracting := [2]
  lhsNonContracting := [1]
  rhsNonContracting := [1]
  lhsBatch := [0]
  rhsBatch := [0]
  wf := dot_S1x4096x128_S1x4096x128_S1x4096x4096_2_2_1_1_0_0_wf

class Facts : Prop extends Facts₀ where

variable [Facts]
-- ==== Proof.HalfSqDist.lean ====
/-
  Half the squared distance between rows, as a function of the two argument arrays.

  For arrays `x, y` of shape [1, 4096, 128] over the extended reals the result at `(0, i, j)` is
  `½ · (‖x_i‖² + ‖y_j‖²) − ⟨x_i, y_j⟩`, the Gram expansion of `½ · ‖x_i − y_j‖²`, where
  `‖x_i‖² = ∑_k x_{i,k}²` and `⟨x_i, y_j⟩ = ∑_k x_{i,k} · y_{j,k}` run over the 128 features.
  One arrangement scales the sum of the two squared norms (`cost`); the other scales each squared norm
  first and works on the [4096, 4096] matrix without the leading unit axis (`costSplit`). The two agree at
  every index because multiplication by the finite nonnegative constant `½` distributes over ANY sum of extended
  reals, infinite summands included, so no finiteness of the inputs is used.
-/
import Idealize.ShloMosaic.PureOps.Ideal
import Idealize.ShloMosaic.Lib.ValueIdx

noncomputable section

namespace Cert.HalfSqDist

open Idealize.ShloMosaic Idealize.ShloMosaic.ValueIdx

/-- The two programs' scale factor: the f32 pattern of `0.5`, as an extended real. -/
abbrev half : EReal := Ideal.ofBits .f32 0x3F000000#32

/-- The pattern `0x3F000000` denotes the real `1/2`. -/
theorem half_eq : half = (((1 : ℝ) / 2 : ℝ) : EReal) := by
  simp [half, Ideal.ofBits, Ideal.ieee, -EReal.coe_mul]; norm_num

theorem half_nonneg : 0 ≤ half := by
  rw [half_eq]; exact EReal.coe_nonneg.mpr (by norm_num)

theorem half_ne_top : half ≠ ⊤ := by
  rw [half_eq]; exact EReal.coe_ne_top _

/-- THE LAW joining the two arrangements: `½ · (a + b) = ½ · a + ½ · b` for all extended reals `a`, `b`. -/
theorem half_mul_add (a b : EReal) : half * (a + b) = half * a + half * b :=
  EReal.left_distrib_of_nonneg_of_ne_top half_nonneg half_ne_top a b

/-- The squared norm of row `i`: the sum over the 128 features of the entry squared. -/
def sqNorm (x : (⟨3, ![1, 4096, 128]⟩ : Shape).Idx → EReal) (i : Fin 4096) : EReal :=
  ∑ k : Fin 128, x (ix3 (0 : Fin 1) i k) * x (ix3 (0 : Fin 1) i k)

/-- The inner product of row `i` of `x` with row `j` of `y`. -/
def gram (x y : (⟨3, ![1, 4096, 128]⟩ : Shape).Idx → EReal) (i j : Fin 4096) : EReal :=
  ∑ k : Fin 128, x (ix3 (0 : Fin 1) i k) * y (ix3 (0 : Fin 1) j k)

/-- The cost array [1, 4096, 4096], the squared norms added before scaling. -/
def cost (x y : (⟨3, ![1, 4096, 128]⟩ : Shape).Idx → EReal) : (⟨3, ![1, 4096, 4096]⟩ : Shape).Idx → EReal :=
  fun q => half * (sqNorm x (q 1) + sqNorm y (q 2)) - gram x y (q 1) (q 2)

/-- The cost matrix [4096, 4096], each squared norm scaled before the two are added. -/
def costSplit (x y : (⟨3, ![1, 4096, 128]⟩ : Shape).Idx → EReal) : (⟨2, ![4096, 4096]⟩ : Shape).Idx → EReal :=
  fun q => (half * sqNorm x (q 0) + half * sqNorm y (q 1)) - gram x y (q 0) (q 1)

/-- The two arrangements agree: entry `(u, i, j)` of the array is entry `(i, j)` of the matrix. -/
theorem cost_ix3 (x y : (⟨3, ![1, 4096, 128]⟩ : Shape).Idx → EReal) (u : Fin 1) (i j : Fin 4096) :
    cost x y (ix3 u i j) = costSplit x y (ix2 i j) := by
  show half * (sqNorm x i + sqNorm y j) - gram x y i j = (half * sqNorm x i + half * sqNorm y j) - gram x y i j
  rw [half_mul_add]

end Cert.HalfSqDist

end
-- ==== Proof.RefIsCost.lean ====
/-
  The reference computes the cost array.

  Read one operation at a time, entry `(u, i, j)` of the reference's result is
  `½ · ((0 + ∑_k x_{i,k}²) + (0 + ∑_k y_{j,k}²)) − ∑_k x_{i,k} · y_{j,k}`: each row sum starts from the zero it is
  initialised with, the two row sums are laid along the rows and the columns of the [1, 4096, 4096] array by
  broadcasts, and the batched contraction over the feature axis is the inner product of row `i` of `x` with
  row `j` of `y`. With `0 + s = s` this is `HalfSqDist.cost` at that entry.
-/
import proofs.«137484_j1047972020590_2_alg».proof.Proof.Gen.ReferenceIdeal.Read
import proofs.«137484_j1047972020590_2_alg».proof.Proof.HalfSqDist

noncomputable section

namespace Cert.ReferenceIdeal.AsCost

open Cert.ReferenceIdeal Cert.ReferenceIdeal.Gen Cert.ReferenceIdeal.Read
open Idealize.ShloMosaic Idealize.ShloMosaic.ValueIdx Cert.HalfSqDist

/-- The reference's last stage, as a function of the two argument arrays, is the cost array. -/
theorem val_eq_cost (x0 x1 : (⟨S1x4096x128, .f32⟩ : BufTy).Contents (Elt Ideal)) :
    val_main_v12 (F := Ideal) x0 x1 = cost x0 x1 := by
  funext i
  obtain ⟨u, a, b, rfl⟩ : ∃ (u : Fin 1) (a b : Fin 4096), i = ix3 u a b := ⟨i 0, i 1, i 2, eq_ix3 i⟩
  -- the feature-axis index each sum reads, in coordinates
  have ex : ∀ k : Fin 128, idx_main_v1 (idx_main_v5 (idx_main_v7 (ix3 u a b))) k = ix3 (0 : Fin 1) a k := fun k =>
    funext fun d => Fin.ext (by match d with | ⟨0, _⟩ => rfl | ⟨1, _⟩ => rfl | ⟨2, _⟩ => rfl)
  have ey : ∀ k : Fin 128, idx_main_v3 (idx_main_v6 (idx_main_v8 (ix3 u a b))) k = ix3 (0 : Fin 1) b k := fun k =>
    funext fun d => Fin.ext (by match d with | ⟨0, _⟩ => rfl | ⟨1, _⟩ => rfl | ⟨2, _⟩ => rfl)
  have hu : u.val = 0 := by omega
  have el : ∀ k : Fin 128, lidx_main_v4 (ix3 u a b) k = ix3 (0 : Fin 1) a k := fun k =>
    funext fun d => Fin.ext (by match d with | ⟨0, _⟩ => exact hu | ⟨1, _⟩ => rfl | ⟨2, _⟩ => rfl)
  have er : ∀ k : Fin 128, ridx_main_v4 (ix3 u a b) k = ix3 (0 : Fin 1) b k := fun k =>
    funext fun d => Fin.ext (by match d with | ⟨0, _⟩ => exact hu | ⟨1, _⟩ => rfl | ⟨2, _⟩ => rfl)
  rw [val_main_v12_apply, val_main_v11_apply, val_main_v10_apply, val_main_cst_1_apply, val_main_v9_apply,
    val_main_v7_apply, val_main_v5_apply, val_main_v1_apply, val_main_v8_apply, val_main_v6_apply, val_main_v3_apply,
    val_main_v4_apply]
  simp only [val_main_v0_apply, val_main_v2_apply, val_main_cst_apply, val_main_cst_0_apply, Ideal.ofBits_def,
    Ideal.mulf_def, Ideal.addf_def, Ideal.subf_def, Ideal.ofBits_zero_f32, zero_add, ex, ey, el, er]
  rfl

end Cert.ReferenceIdeal.AsCost

end
-- ==== Proof.Staged.lean ====
/-
  What the kernel's region finds in its four input arrays, and each input block as rows of the arguments.

  Before the region the program drops the leading unit axis of `x` and of `y` ([1, 4096, 128] viewed as
  [4096, 128]) and makes a narrow-format copy of each; over the extended reals the copy holds the same numbers. So
  all four arrays the region reads hold, at `(i, k)`, the argument's entry `(0, i, k)`: the first and third
  `x`'s, the second and fourth `y`'s.

  The grid is 4 × 4. At the point with output block `(R, C)` the blocks of the first and third arrays are rows
  `1024·R … 1024·R + 1023` (all 128 features), those of the second and fourth rows `1024·C … 1024·C + 1023`:
  entry `(p, k)` of a block is the array's entry `(1024·R + p, k)`, respectively `(1024·C + p, k)`.
-/
import proofs.«137484_j1047972020590_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Staged

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ)

/-! ## The arrays at the region's entry -/

/-- The first array is `x` without its leading unit axis. -/
theorem V_v0_apply (c : Dev nD) (i : Fin 4096) (k : Fin 128) :
    (V m c main_v0 : S4096x128.Idx → EReal) (ix2 i k)
      = (m ((c : Thread nD τ).loc main_arg0) : S1x4096x128.Idx → EReal) (ix3 (0 : Fin 1) i k) := by
  have e : (V m c main_v0 : S4096x128.Idx → EReal)
      = shapeCast S4096x128 (m ((c : Thread nD τ).loc main_arg0) : S1x4096x128.Idx → EReal) shapeCasts_S1x4096x128_S4096x128 := by
    show StableHlo.after hostOps0 (fun b => m (c, b)) (Proc.devRef .tc main_v0) = _
    after_results
    rfl
  rw [e]
  exact shapeCast_1ab_ab_apply _ _ i k

/-- The second array is `y` without its leading unit axis. -/
theorem V_v1_apply (c : Dev nD) (i : Fin 4096) (k : Fin 128) :
    (V m c main_v1 : S4096x128.Idx → EReal) (ix2 i k)
      = (m ((c : Thread nD τ).loc main_arg1) : S1x4096x128.Idx → EReal) (ix3 (0 : Fin 1) i k) := by
  have e : (V m c main_v1 : S4096x128.Idx → EReal)
      = shapeCast S4096x128 (m ((c : Thread nD τ).loc main_arg1) : S1x4096x128.Idx → EReal) shapeCasts_S1x4096x128_S4096x128 := by
    show StableHlo.after hostOps0 (fun b => m (c, b)) (Proc.devRef .tc main_v1) = _
    after_results
    rfl
  rw [e]
  exact shapeCast_1ab_ab_apply _ _ i k

/-- The third array, the narrow-format copy of the first, holds the same extended reals. -/
theorem V_v2_apply (c : Dev nD) (i : Fin 4096) (k : Fin 128) :
    (V m c main_v2 : S4096x128.Idx → EReal) (ix2 i k)
      = (m ((c : Thread nD τ).loc main_arg0) : S1x4096x128.Idx → EReal) (ix3 (0 : Fin 1) i k) := by
  have e : (V m c main_v2 : S4096x128.Idx → EReal)
      = shapeCast S4096x128 (m ((c : Thread nD τ).loc main_arg0) : S1x4096x128.Idx → EReal) shapeCasts_S1x4096x128_S4096x128 := by
    show StableHlo.after hostOps0 (fun b => m (c, b)) (Proc.devRef .tc main_v2) = _
    after_results
    rfl
  rw [e]
  exact shapeCast_1ab_ab_apply _ _ i k

/-- The fourth array, the narrow-format copy of the second, holds the same extended reals. -/
theorem V_v3_apply (c : Dev nD) (i : Fin 4096) (k : Fin 128) :
    (V m c main_v3 : S4096x128.Idx → EReal) (ix2 i k)
      = (m ((c : Thread nD τ).loc main_arg1) : S1x4096x128.Idx → EReal) (ix3 (0 : Fin 1) i k) := by
  have e : (V m c main_v3 : S4096x128.Idx → EReal)
      = shapeCast S4096x128 (m ((c : Thread nD τ).loc main_arg1) : S1x4096x128.Idx → EReal) shapeCasts_S1x4096x128_S4096x128 := by
    show StableHlo.after hostOps0 (fun b => m (c, b)) (Proc.devRef .tc main_v3) = _
    after_results
    rfl
  rw [e]
  exact shapeCast_1ab_ab_apply _ _ i k

/-! ## The index maps over the grid -/

/-- At every grid point the first and third windows' block row is the output's block row, the second and fourth
    windows' block row is the output's block COLUMN, every input block starts at feature 0, and the output's block
    coordinates are below 4. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = win0_4.index t (1 : Fin 2) ∧ win0_3.index t (1 : Fin 2) = 0
    ∧ win0_4.index t (0 : Fin 2) ≤ 3 ∧ win0_4.index t (1 : Fin 2) ≤ 3 :=
  (by decide +kernel : ∀ t : Fin grid0.N, _)

/-- Every pair of block coordinates below 4 is some grid point's. -/
theorem idx_onto : ∀ (q0 q1 : Fin 4), ∃ t : Fin cfg0.N, win0_4.index t = ![q0.val, q1.val] :=
  (by decide +kernel : ∀ (q0 q1 : Fin 4), ∃ t : Fin grid0.N, win0_4.index t = ![q0.val, q1.val])

/-! ## Each input block as rows of an argument -/

/-- Entry `(p, k)` of the first window's block at point `t` is `x` at row `1024·R + p`, `R` the output's block row. -/
theorem blk0_apply (c : Dev nD) (t : Fin cfg0.N) (p : Fin 1024) (k : Fin 128) (I : Fin 4096)
    (hI : I.val = win0_4.index t (0 : Fin 2) * 1024 + p.val) :
    (iblk m c 0 t : S1024x128.Idx → EReal) (ix2 p k)
      = (m ((c : Thread nD τ).loc main_arg0) : S1x4096x128.Idx → EReal) (ix3 (0 : Fin 1) I k) := by
  obtain ⟨e0, e1, -⟩ := idx_facts t
  have he : ((cfg0.win 0).blk t).view.emb (ix2 p k) = ix2 I k := by
    funext a; apply Fin.ext
    match a with
    | ⟨0, _⟩ => show win0_0.index t (0 : Fin 2) * 1024 + 1 * p.val = I.val; omega
    | ⟨1, _⟩ => show win0_0.index t (1 : Fin 2) * 128 + 1 * k.val = k.val; omega
  unfold iblk
  rw [View.read_apply]
  show (V m c main_v0 : S4096x128.Idx → EReal) (((cfg0.win 0).blk t).view.emb (ix2 p k)) = _
  rw [he]
  exact V_v0_apply m c I k

/-- Entry `(p, k)` of the second window's block at point `t` is `y` at row `1024·C + p`, `C` the output's block column. -/
theorem blk1_apply (c : Dev nD) (t : Fin cfg0.N) (p : Fin 1024) (k : Fin 128) (J : Fin 4096)
    (hJ : J.val = win0_4.index t (1 : Fin 2) * 1024 + p.val) :
    (iblk m c 1 t : S1024x128.Idx → EReal) (ix2 p k)
      = (m ((c : Thread nD τ).loc main_arg1) : S1x4096x128.Idx → EReal) (ix3 (0 : Fin 1) J k) := by
  obtain ⟨-, -, e0, e1, -⟩ := idx_facts t
  have he : ((cfg0.win 1).blk t).view.emb (ix2 p k) = ix2 J k := by
    funext a; apply Fin.ext
    match a with
    | ⟨0, _⟩ => show win0_1.index t (0 : Fin 2) * 1024 + 1 * p.val = J.val; omega
    | ⟨1, _⟩ => show win0_1.index t (1 : Fin 2) * 128 + 1 * k.val = k.val; omega
  unfold iblk
  rw [View.read_apply]
  show (V m c main_v1 : S4096x128.Idx → EReal) (((cfg0.win 1).blk t).view.emb (ix2 p k)) = _
  rw [he]
  exact V_v1_apply m c J k

/-- The third window's block is the same rows of `x` as the first's. -/
theorem blk2_apply (c : Dev nD) (t : Fin cfg0.N) (p : Fin 1024) (k : Fin 128) (I : Fin 4096)
    (hI : I.val = win0_4.index t (0 : Fin 2) * 1024 + p.val) :
    (iblk m c 2 t : S1024x128.Idx → EReal) (ix2 p k)
      = (m ((c : Thread nD τ).loc main_arg0) : S1x4096x128.Idx → EReal) (ix3 (0 : Fin 1) I k) := by
  obtain ⟨-, -, -, -, e0, e1, -⟩ := idx_facts t
  have he : ((cfg0.win 2).blk t).view.emb (ix2 p k) = ix2 I k := by
    funext a; apply Fin.ext
    match a with
    | ⟨0, _⟩ => show win0_2.index t (0 : Fin 2) * 1024 + 1 * p.val = I.val; omega
    | ⟨1, _⟩ => show win0_2.index t (1 : Fin 2) * 128 + 1 * k.val = k.val; omega
  unfold iblk
  rw [View.read_apply]
  show (V m c main_v2 : S4096x128.Idx → EReal) (((cfg0.win 2).blk t).view.emb (ix2 p k)) = _
  rw [he]
  exact V_v2_apply m c I k

/-- The fourth window's block is the same rows of `y` as the second's. -/
theorem blk3_apply (c : Dev nD) (t : Fin cfg0.N) (p : Fin 1024) (k : Fin 128) (J : Fin 4096)
    (hJ : J.val = win0_4.index t (1 : Fin 2) * 1024 + p.val) :
    (iblk m c 3 t : S1024x128.Idx → EReal) (ix2 p k)
      = (m ((c : Thread nD τ).loc main_arg1) : S1x4096x128.Idx → EReal) (ix3 (0 : Fin 1) J k) := by
  obtain ⟨-, -, -, -, -, -, e0, e1, -⟩ := idx_facts t
  have he : ((cfg0.win 3).blk t).view.emb (ix2 p k) = ix2 J k := by
    funext a; apply Fin.ext
    match a with
    | ⟨0, _⟩ => show win0_3.index t (0 : Fin 2) * 1024 + 1 * p.val = J.val; omega
    | ⟨1, _⟩ => show win0_3.index t (1 : Fin 2) * 128 + 1 * k.val = k.val; omega
  unfold iblk
  rw [View.read_apply]
  show (V m c main_v3 : S4096x128.Idx → EReal) (((cfg0.win 3).blk t).view.emb (ix2 p k)) = _
  rw [he]
  exact V_v3_apply m c J k

end Cert.KernelIdeal.Staged

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.BlockCost.lean ====
/-
  One block of the kernel body, entry by entry.

  The body loads a [1024, 128] block of rows of `x`, one of `y`, and the same two blocks in the narrow format
  (over the extended reals a change of format is the identity, so these are the same numbers), and stores a
  [1024, 1024] tile. Entry `(p, q)` of the tile is
  `(½ · ∑_k x_{p,k}² + ½ · ∑_k y_{q,k}²) − ∑_k xb_{p,k} · yb_{q,k}`:
  the row sums of squares are taken along the feature axis, scaled by `½`, the first kept as a column and spread
  along the rows of the tile, the second laid as a row and spread along its columns; the last sum is the matrix
  product contracting the feature axis of both operands, accumulated from zero.
-/
import proofs.«137484_j1047972020590_2_alg».proof.Proof.Gen.KernelIdeal.Skeleton
import proofs.«137484_j1047972020590_2_alg».proof.Proof.HalfSqDist
import proofs.«137484_j1047972020590_2_alg».proof.Proof.LibKeepdims
import Idealize.ShloMosaic.Lib.ValueLayout

noncomputable section

namespace Cert.KernelIdeal.BlockCost

open Cert.KernelIdeal Cert.KernelIdeal.Gen
open Idealize.ShloMosaic Idealize.ShloMosaic.ValueIdx Cert.HalfSqDist Cert.Lib.Keepdims

/-- The scaled squared norm of row `p` of a block, kept as a column and spread along the tile's rows: at `(p, q)`
    it is `c · ∑_k v_{p,k}²`, for every column `q`. -/
theorem column_apply (c : Ideal .f32) (v : FVec Ideal S1024x128 .f32) (hr : S1024x128.Reduces [1] S1024)
    (hφ : FKind.Formats .f32) (hacc : (0x00000000#32 : BitVec 32) = FKind.add.neutral .f32 hφ)
    (hc : S1024.ShapeCasts S1024x1) (hb : S1024x1.Broadcasts S1024x1024) (p q : Fin 1024) :
    broadcastTo S1024x1024 (mulf (broadcast S1024x1 c)
        (shapeCast S1024x1 (multiReduction .add [1] S1024 (mulf v v) 0x00000000#32 hr hφ hacc) hc)) hb (ix2 p q)
      = c * ∑ k : Fin 128, v (ix2 p k) * v (ix2 p k) := by
  rw [broadcastTo_a1_ab_apply]
  show c * shapeCast S1024x1 (multiReduction .add [1] S1024 (mulf v v) 0x00000000#32 hr hφ hacc) hc (ix2 p (0 : Fin 1)) = _
  rw [shapeCast_a_a1_apply, laneSum_apply]
  rfl

/-- The scaled squared norm of row `q` of a block, laid as a row and spread along the tile's columns: at `(p, q)`
    it is `c · ∑_k v_{q,k}²`, for every row `p`. -/
theorem row_apply (c : Ideal .f32) (v : FVec Ideal S1024x128 .f32) (hr : S1024x128.Reduces [1] S1024)
    (hφ : FKind.Formats .f32) (hacc : (0x00000000#32 : BitVec 32) = FKind.add.neutral .f32 hφ)
    (hc : S1024.ShapeCasts S1x1024) (hb : S1x1024.Broadcasts S1024x1024) (p q : Fin 1024) :
    broadcastTo S1024x1024 (mulf (broadcast S1x1024 c)
        (shapeCast S1x1024 (multiReduction .add [1] S1024 (mulf v v) 0x00000000#32 hr hφ hacc) hc)) hb (ix2 p q)
      = c * ∑ k : Fin 128, v (ix2 q k) * v (ix2 q k) := by
  rw [broadcastTo_1b_ab_apply]
  show c * shapeCast S1x1024 (multiReduction .add [1] S1024 (mulf v v) 0x00000000#32 hr hφ hacc) hc (ix2 (0 : Fin 1) q) = _
  rw [shapeCast_a_1a_apply, laneSum_apply]
  rfl

/-- On the left operand the product's index at tile entry `j` and contraction index `k` keeps `j`'s row … -/
theorem lhs_row (j : S1024x1024.Idx) (k : dot_S1024x128_S1024x128_S1024x1024_1_1_0_0_n_n.contr.Idx) :
    (dot_S1024x128_S1024x128_S1024x1024_1_1_0_0_n_n.lhsIdx j k 0).val = (j 0).val := by
  unfold DotDims.lhsIdx
  rw [dif_neg (show ¬(0 : Fin S1024x128.rank) ∈ dot_S1024x128_S1024x128_S1024x1024_1_1_0_0_n_n.lhsBatch by decide),
    dif_pos (show (0 : Fin S1024x128.rank) ∈ dot_S1024x128_S1024x128_S1024x1024_1_1_0_0_n_n.lhsNonContracting by decide)]
  rfl
/-- … and on the right operand it takes `j`'s column as the row. -/
theorem rhs_row (j : S1024x1024.Idx) (k : dot_S1024x128_S1024x128_S1024x1024_1_1_0_0_n_n.contr.Idx) :
    (dot_S1024x128_S1024x128_S1024x1024_1_1_0_0_n_n.rhsIdx j k 0).val = (j 1).val := by
  unfold DotDims.rhsIdx
  rw [dif_neg (show ¬(0 : Fin S1024x128.rank) ∈ dot_S1024x128_S1024x128_S1024x1024_1_1_0_0_n_n.rhsBatch by decide),
    dif_pos (show (0 : Fin S1024x128.rank) ∈ dot_S1024x128_S1024x128_S1024x1024_1_1_0_0_n_n.rhsNonContracting by decide)]
  rfl

/-- The matrix product contracting the feature axis of both operands, accumulated from zero: at `(p, q)` the inner
    product of row `p` of the left block with row `q` of the right one. -/
theorem gram_apply (l r : FVec Ideal S1024x128 .bf16) (p q : Fin 1024) :
    matmul dot_S1024x128_S1024x128_S1024x1024_1_1_0_0_n_n none l r (constant S1024x1024 .f32 0x00000000#32) (ix2 p q)
      = ∑ k : Fin 128, l (ix2 p k) * r (ix2 q k) := by
  simp only [matmul]
  rw [Ideal.matmul_constant_zero_apply, ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 p q) ((contrEquiv1 dot_S1024x128_S1024x128_S1024x1024_1_1_0_0_n_n 128 rfl rfl).symm k) = ix2 p k := funext fun a => Fin.ext (by
    match a with
    | ⟨0, _⟩ => exact lhs_row _ _
    | ⟨1, _⟩ => exact (dot_S1024x128_S1024x128_S1024x1024_1_1_0_0_n_n.lhsIdx_val_of_single rfl _ _).trans hk)
  have er : dot_S1024x128_S1024x128_S1024x1024_1_1_0_0_n_n.rhsIdx (ix2 p q) ((contrEquiv1 dot_S1024x128_S1024x128_S1024x1024_1_1_0_0_n_n 128 rfl rfl).symm k) = ix2 q k := funext fun a => Fin.ext (by
    match a with
    | ⟨0, _⟩ => exact rhs_row _ _
    | ⟨1, _⟩ => exact (dot_S1024x128_S1024x128_S1024x1024_1_1_0_0_n_n.rhsIdx_val_of_single rfl _ _).trans hk)
  rw [el, er]

/-- THE TILE ENTRY: what the body stores at `(p, q)`, from its four loaded blocks. -/
theorem pay_apply (x0 x1 : Vec Ideal S1024x128 .f32) (x2 x3 : Vec Ideal S1024x128 .bf16) (p q : Fin 1024) :
    k0_pay1 (F := Ideal) x0 x1 x2 x3 (ix2 p q)
      = (half * (∑ k : Fin 128, x0 (ix2 p k) * x0 (ix2 p k)) + half * (∑ k : Fin 128, x1 (ix2 q k) * x1 (ix2 q k)))
        - ∑ k : Fin 128, x2 (ix2 p k) * x3 (ix2 q k) := by
  unfold k0_pay1
  simp only [shapeCast_self, subf_apply, addf_apply]
  refine congrArg₂ (· - ·) (congrArg₂ (· + ·) ?_ ?_) ?_
  · exact column_apply _ _ _ _ _ _ _ p q
  · exact row_apply _ _ _ _ _ _ _ p q
  · exact gram_apply _ _ p q

end Cert.KernelIdeal.BlockCost

end
-- ==== Proof.Tile.lean ====
/-
  From the tiles to the matrix.

  The output array [4096, 4096] is cut into a 4 × 4 grid of [1024, 1024] tiles, one per grid point, each written
  back once. At the point with block coordinates `(R, C)`, entry `(p, q)` of the tile the body stores is
  `(½ · ‖x_i‖² + ½ · ‖y_j‖²) − ⟨x_i, y_j⟩` with `i = 1024·R + p` and `j = 1024·C + q`: the body's arithmetic
  read at an entry (the block lemma), with each loaded block read as rows of the arguments. That is tile `(R, C)` of
  the matrix `costSplit x y`. Every entry `(i, j)` of the array lies in the tile `(i / 1024, j / 1024)`, so the
  tiles cover the array and after the region it holds `costSplit x y` everywhere.
-/
import proofs.«137484_j1047972020590_2_alg».proof.Proof.Staged
import proofs.«137484_j1047972020590_2_alg».proof.Proof.BlockCost

noncomputable section

namespace Cert.KernelIdeal.Tile

open Cert.KernelIdeal Cert.KernelIdeal.Gen Cert.KernelIdeal.Staged Cert.KernelIdeal.BlockCost
open Idealize.ShloMosaic Idealize.ShloMosaic.TcCoe Idealize.SL.Sem Idealize.ShloMosaic.ValueIdx Cert.HalfSqDist
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The matrix the output array ends holding, from the two arguments as launched. -/
abbrev target (c : Dev nD) : S4096x4096.Idx → EReal :=
  costSplit (m ((c : Thread nD τ).loc main_arg0)) (m ((c : Thread nD τ).loc main_arg1))

/-- WHAT POINT `t` WRITES BACK is tile `t` of the matrix. -/
theorem flushed_eq (c : Dev nD) (t : Fin cfg0.N) :
    (dats m 0 c).flushed 4 t = ((cfg0.win 4).blk t).view.read (Elt Ideal) (target m c) := by
  show (cfg0.win 4).cut (grid0.coords t) ((dats m 0 c).after 4 t) = _
  rw [after0_4]
  unfold out0_4
  rw [View.canon_unit_zero hz]
  simp only [View.ld_unit_zero (S := S1024x128) hz]
  funext j
  obtain ⟨p, q, rfl⟩ : ∃ (p q : Fin 1024), j = ix2 p q := ⟨j 0, j 1, eq_ix2 j⟩
  -- the array entry this tile entry is
  obtain ⟨-, -, -, -, -, -, -, -, b0, b1⟩ := idx_facts t
  let I : Fin 4096 := ⟨win0_4.index t (0 : Fin 2) * 1024 + p.val, by have := p.isLt; omega⟩
  let J : Fin 4096 := ⟨win0_4.index t (1 : Fin 2) * 1024 + q.val, by have := q.isLt; omega⟩
  have he : ((cfg0.win 4).blk t).view.emb (ix2 p q) = ix2 I J := by
    funext a; apply Fin.ext
    match a with
    | ⟨0, _⟩ => show win0_4.index t (0 : Fin 2) * 1024 + 1 * p.val = win0_4.index t (0 : Fin 2) * 1024 + p.val; omega
    | ⟨1, _⟩ => show win0_4.index t (1 : Fin 2) * 1024 + 1 * q.val = win0_4.index t (1 : Fin 2) * 1024 + q.val; omega
  show k0_pay1 (F := Ideal) (iblk m c 0 t) (iblk m c 1 t) (iblk m c 2 t) (iblk m c 3 t) (ix2 p q)
    = target m c (((cfg0.win 4).blk t).view.emb (ix2 p q))
  rw [he]
  refine (pay_apply _ _ _ _ p q).trans ?_
  show _ = (half * sqNorm _ I + half * sqNorm _ J) - gram _ _ I J
  unfold sqNorm gram
  refine congrArg₂ (· - ·) (congrArg₂ (· + ·) (congrArg (half * ·) ?_) (congrArg (half * ·) ?_)) ?_
  · exact Finset.sum_congr rfl fun k _ => by rw [blk0_apply m c t p k I rfl]
  · exact Finset.sum_congr rfl fun k _ => by rw [blk1_apply m c t q k J rfl]
  · exact Finset.sum_congr rfl fun k _ => by rw [blk2_apply m c t p k I rfl, blk3_apply m c t q k J rfl]

/-- An index of the array is in point `t`'s tile iff each coordinate is in the tile's range on its axis. -/
theorem mem_blk (t : Fin cfg0.N) (i : S4096x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v4).slice (win0_4.rect t)).set ↔ _
  rw [View.set_slice_whole, Rect.mem_set_unit]
  exact Iff.rfl

/-- THE COVER: entry `(i, j)` lies in the tile with block coordinates `(i / 1024, j / 1024)`. -/
theorem cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-- THE ARRAY after the region: the matrix, everywhere. -/
theorem final (c : Dev nD) : (dats m 0 c).arrAt 4 cfg0.N = target m c :=
  (dats m 0 c).arrAt_eq_of_cover 4 (target m c) (fun t _ => flushed_eq m c t) cover

end Cert.KernelIdeal.Tile

end
-- ==== Proof.Whole.lean ====
/-
  The kernel's program, start to end.

  After the region the program views the [4096, 4096] matrix as the [1, 4096, 4096] array it returns: entry
  `(0, i, j)` of the result is entry `(i, j)` of the matrix. The region leaves the matrix
  `(½ · ‖x_i‖² + ½ · ‖y_j‖²) − ⟨x_i, y_j⟩` (the tiles cover it), and since `½ · (a + b) = ½ · a + ½ · b` for all
  extended reals, the result is the cost array `½ · (‖x_i‖² + ‖y_j‖²) − ⟨x_i, y_j⟩`. The two arguments end as
  launched: no line of the program writes them.
-/
import proofs.«137484_j1047972020590_2_alg».proof.Proof.Tile

noncomputable section

namespace Cert.KernelIdeal.Whole

open Cert.KernelIdeal Cert.KernelIdeal.Gen Cert.KernelIdeal.Tile
open Idealize.ShloMosaic Idealize.ShloMosaic.TcCoe Idealize.SL.Sem Idealize.ShloMosaic.StableHlo Idealize.ShloMosaic.ValueIdx Cert.HalfSqDist
open Idealize.ShloMosaic.Pipeline (Dat)

variable (m : (ℓ : Loc nD τ sig) → Buf (Elt Ideal) ℓ) (ρ : Dev nD → PrngReg)

/-- What the program's last line leaves in the result buffer: the cost array of the arguments as launched. -/
theorem result_eq (c : Dev nD) :
    Pipeline.afterTail₀ cfgs (dats m) 0 (V0 m) [hostOps1] c main_v5
      = cost (m ((c : Thread nD τ).loc main_arg0)) (m ((c : Thread nD τ).loc main_arg1)) := by
  have e : Pipeline.withArrays spec0 c (V0 m c) (fun w => (dats m 0 c).arrAt w cfg0.N) (Proc.devRef .tc main_v4) = target m c :=
    (Pipeline.withArrays_arr spec0 launch0.win.arr_inj c (V0 m c) (fun w => (dats m 0 c).arrAt w cfg0.N) 4).trans (final m c)
  unfold Pipeline.afterTail₀
  show StableHlo.after hostOps1 _ (Proc.devRef .tc main_v5) = _
  after_results
  funext i
  obtain ⟨u, a, b, rfl⟩ : ∃ (u : Fin 1) (a b : Fin 4096), i = ix3 u a b := ⟨i 0, i 1, i 2, eq_ix3 i⟩
  show shapeCast S1x4096x4096 (Pipeline.withArrays spec0 c (V0 m c) (fun w => (dats m 0 c).arrAt w cfg0.N) (Proc.devRef .tc main_v4))
      shapeCasts_S4096x4096_S1x4096x4096 (ix3 u a b) = _
  rw [e]
  exact (shapeCast_ab_1ab_apply _ _ u a b).trans (cost_ix3 _ _ u a b).symm

/-- THE RUN, READ: every weakly fair execution terminates with the result buffer at the cost array of the arguments,
    the arguments unchanged. -/
theorem run : θ_run defs (onTc (τ := τ) (main (F := Ideal))) ⟨m, fun _ => 0, ρ⟩ fun r => ∀ c : Dev nD,
      r.2.mem ((c : Thread nD τ).loc main_v5) = cost (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v5 (Pipeline.mem_restRefs_of main_v5 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Whole

end
-- ==== Proof.lean ====
/-
  Half the squared distance between every row of `x` and every row of `y` (both [1, 4096, 128]), tiled on a 4 × 4
  grid, against the same cost written with whole-array operations.

  Over the extended reals the kernel's program returns, at `(0, i, j)`,
  `(½ · ∑_k x_{i,k}² + ½ · ∑_k y_{j,k}²) − ∑_k x_{i,k} · y_{j,k}` — the narrow-format copies it multiplies are the
  same numbers, and each sum is a plain finite sum whatever its order or grouping — while the reference returns
  `½ · (∑_k x_{i,k}² + ∑_k y_{j,k}²) − ∑_k x_{i,k} · y_{j,k}`. The two agree because multiplication by the finite
  nonnegative constant `½` distributes over every sum of extended reals (`HalfSqDist.half_mul_add`); the inputs'
  finiteness is not needed. The kernel side is read off its generated frame run (each tile from the body's
  arithmetic, the tiles covering the matrix, the last line's change of view); the reference side is its generated
  run read one operation at a time. No operation of the kernel was rewritten by the idealization, so nothing is
  owed for it.
-/
import proofs.«137484_j1047972020590_2_alg».proof.Defs
import proofs.«137484_j1047972020590_2_alg».proof.Proof.Gen.Kernel
import proofs.«137484_j1047972020590_2_alg».proof.Proof.Gen.Kernel.Frame
import proofs.«137484_j1047972020590_2_alg».proof.Proof.Gen.KernelIdeal
import proofs.«137484_j1047972020590_2_alg».proof.Proof.Gen.KernelIdeal.Frame
import proofs.«137484_j1047972020590_2_alg».proof.Proof.Gen.ReferenceIdeal
import proofs.«137484_j1047972020590_2_alg».proof.Proof.Gen.ReferenceIdeal.Run
import proofs.«137484_j1047972020590_2_alg».proof.Proof.Gen.ReferenceIdeal.Read
import proofs.«137484_j1047972020590_2_alg».proof.Proof.Gen.Pre_finite_inputs
import proofs.«137484_j1047972020590_2_alg».proof.Proof.RefIsCost
import proofs.«137484_j1047972020590_2_alg».proof.Proof.Whole

noncomputable section

namespace Cert.Proof

open Idealize.ShloMosaic Idealize.ShloMosaic.TcCoe Idealize.SL.Sem

/-- The word-level program runs, faults nowhere, and leaves its arguments as launched. -/
theorem frame_kernel : Cert.frame_Kernel := fun m ρ _ => Cert.Kernel.Gen.frame m ρ

/-- So does the program read over the extended reals. -/
theorem frame_kernelIdeal : Cert.frame_KernelIdeal := fun m ρ _ => Cert.KernelIdeal.Gen.frame m ρ

/-- The reference is a straight line of whole-array operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the cost array of the (agreeing) arguments in their result buffers. -/
theorem algebraic : Cert.algebraic_KernelIdeal_ReferenceIdeal := by
  intro m ρ m' ρ' _ hagree
  refine ⟨fun c => Cert.HalfSqDist.cost (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v12_eq, Cert.ReferenceIdeal.AsCost.val_eq_cost, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
